-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S2x1600000 32) (main_arg2 : FVec F S128x64 .f32) (main_arg3 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S50000x128 : Shape := ⟨2, ![50000, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩

abbrev nBuf : Space → Nat
  | .hbm => 69
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S100000x64, .bf16⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .bf16⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S50000x128, .f32⟩
  | .hbm, ⟨64, _⟩ => ⟨S1x64, .f32⟩
  | .hbm, ⟨65, _⟩ => ⟨S2x64, .f32⟩
  | .hbm, ⟨66, _⟩ => ⟨S128, .f32⟩
  | .hbm, ⟨67, _⟩ => ⟨S50000x128, .f32⟩
  | .hbm, ⟨68, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S100000x64_S50000x128 : S100000x64.ShapeCasts S50000x128
  shapeCasts_S64_S1x64 : S64.ShapeCasts S1x64
  bcast_S1x64_S2x64_0_1 : S1x64.BroadcastsInDim S2x64 (![0, 1] : Fin 2 → Fin S2x64.rank)
  shapeCasts_S2x64_S128 : S2x64.ShapeCasts S128
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  shapeCasts_S50000x128_S100000x64 : S50000x128.ShapeCasts S100000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel program's run with its result buffer NAMED.  The program is seven segments: three stretches of
  host operations (the edge lists with their self loops, the degrees and their inverse square roots, the edge weights),
  the matrix-product region, a stretch of host operations (the row gather, the weighting, the scatter-add, the
  re-laying of the aggregate as [50000, 128] and of the bias as a 128-vector), the bias-and-cut region, and the
  re-laying of its result as [100000, 64].  The buffer contents at the segment boundaries are a fold through @main
  from the launch memory (`Gen.W0` … `Gen.W7`), and every weakly fair execution ends with every unscoped buffer at
  the last boundary's contents.  Here that final state is read at the result buffer as well as at the four arguments:
  the result ends at `Gen.W7` read at the result's reference, whose value the sibling modules compute.
-/
import proofs.«122177_j62062277427822_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the four argument arrays as launched. -/
theorem run_named : θ_run defs (onTc (τ := τ) (main (F := F))) ⟨m, fun _ => 0, ρ⟩ (fun r => ∀ c : Dev nD,
      r.2.mem ((c.tc : Thread nD τ).loc main_v51) = W7 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v51 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Named

end
-- ==== Proof.Chain.lean ====
/-
  The graph part of the layer, shared word for word by the kernel program and the reference, as named functions.

  From the edge list `ei : i32[2, 1600000]`:  `src` and `dst` are its two rows, each followed by the self loops
  0 … 99999 (1 700 000 endpoints);  `deg` counts, for every node, the edges that END there (a scatter-add of ones);
  `dinv` is 1/sqrt(deg) where deg > 0 and 0 elsewhere;  `wrap` adds 100000 to a negative endpoint;  `nrm` is the weight
  dinv[src] · dinv[dst] of every edge.  Given the node features `h : [100000, 64]`, `aggOf h s d n` gathers row s(e) of h
  for every edge e, scales it by n(e) and adds it into row d(e) of a zero array: the aggregate Σ_{e : d(e) = i} n(e) · h(s(e), ·).
  `midK` is the same with the kernel program's detour of h through the 16-bit format and back around the gather.
  Nothing here is opened by the proof: both programs apply the SAME functions, and only their argument `h` differs.
-/
import proofs.«122177_j62062277427822_2_alg».proof.Proof.Gen.KernelIdeal
import Idealize.ShloMosaic.PureOps.Ideal

noncomputable section

namespace Cert.Gcn

open Idealize.ShloMosaic Cert.KernelIdeal Cert.KernelIdeal.Facts₀

variable (F : FTy → Type) [FloatOps F]

/-- The edges' source endpoints followed by the self loops. -/
def src (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' target endpoints followed by the self loops. -/
def dst (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- Every node's in-degree, self loop included: ones added at the target endpoints. -/
def deg (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- 1/sqrt(deg) where the degree is positive, 0 elsewhere. -/
def dinv (g : (⟨S100000, .f32⟩ : BufTy).Contents (Elt F)) : (⟨S100000, .f32⟩ : BufTy).Contents (Elt F) :=
  select (cmpf .ogt g (broadcastInDim S100000 ![] bcast_S_S100000 (constant S_ .f32 0x00000000#32))) (Host.rsqrt g) (broadcastInDim S100000 ![] bcast_S_S100000 (id (constant S_ .f32 0x00000000#32)))

/-- A negative endpoint counted from the end. -/
def wrap (s : (⟨S1700000, .i32⟩ : BufTy).Contents (Elt F)) : (⟨S1700000, .i32⟩ : BufTy).Contents (Elt F) :=
  select (cmpi .slt s (broadcastInDim S1700000 ![] bcast_S_S1700000 (constantI S_ 32 0#32))) (addi s (broadcastInDim S1700000 ![] bcast_S_S1700000 (constantI S_ 32 100000#32))) s

/-- Every edge's weight dinv[src] · dinv[dst]. -/
def nrmOf (v : (⟨S100000, .f32⟩ : BufTy).Contents (Elt F)) (s d : (⟨S1700000, .i32⟩ : BufTy).Contents (Elt F)) : (⟨S1700000, .f32⟩ : BufTy).Contents (Elt F) :=
  mulf (Host.gather gather_S100000_S1700000x1_S1700000_n_0_n_n_0_1_1 v (broadcastInDim S1700000x1 ![0] bcast_S1700000_S1700000x1_0 (wrap F s)))
    (Host.gather gather_S100000_S1700000x1_S1700000_n_0_n_n_0_1_1 v (broadcastInDim S1700000x1 ![0] bcast_S1700000_S1700000x1_0 (wrap F d)))

/-- The weights from the edge list. -/
def nrm (ei : (⟨S2x1600000, .i32⟩ : BufTy).Contents (Elt F)) : (⟨S1700000, .f32⟩ : BufTy).Contents (Elt F) :=
  nrmOf F (dinv F (deg F (dst F ei))) (src F ei) (dst F ei)

/-- The aggregate: row s(e) of h, times n(e), added into row d(e), over all edges e. -/
def aggOf (h : (⟨S100000x64, .f32⟩ : BufTy).Contents (Elt F)) (s d : (⟨S1700000, .i32⟩ : BufTy).Contents (Elt F))
    (n : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d)
    (mulf (Host.gather gather_S100000x64_S1700000x1_S1700000x64_1_0_n_n_0_1_164 h (broadcastInDim S1700000x1 ![0] bcast_S1700000_S1700000x1_0 (wrap F s)))
      (broadcastInDim S1700000x64 ![0, 1] bcast_S1700000x1_S1700000x64_0_1 (broadcastInDim S1700000x1 ![0] bcast_S1700000_S1700000x1_0 n)))

/-- The same aggregate as the kernel program computes it: h narrowed to the 16-bit format before the gather and widened after. -/
def midK (h : (⟨S100000x64, .f32⟩ : BufTy).Contents (Elt F)) (s d : (⟨S1700000, .i32⟩ : BufTy).Contents (Elt F))
    (n : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d)
    (mulf (extf .f32 (Host.gather gather_S100000x64_S1700000x1_S1700000x64_1_0_n_n_0_1_164 (truncf .bf16 h bitsLt_bf16_f32) (broadcastInDim S1700000x1 ![0] bcast_S1700000_S1700000x1_0 (wrap F s))) bitsLt_bf16_f32)
      (broadcastInDim S1700000x64 ![0, 1] bcast_S1700000x1_S1700000x64_0_1 (broadcastInDim S1700000x1 ![0] bcast_S1700000_S1700000x1_0 n)))

/-- The bias repeated twice: the 128-vector the second region adds to the rows of the [50000, 128] re-laying. -/
def bias2 (b : (⟨S64, .f32⟩ : BufTy).Contents (Elt F)) : (⟨S128, .f32⟩ : BufTy).Contents (Elt F) :=
  shapeCast S128 (broadcastInDim S2x64 ![0, 1] bcast_S1x64_S2x64_0_1 (shapeCast S1x64 b shapeCasts_S64_S1x64)) shapeCasts_S2x64_S128

end Cert.Gcn

namespace Cert.Gcn

open Idealize.ShloMosaic Cert.KernelIdeal Cert.KernelIdeal.Facts₀

/-- On the extended reals a change of float format is the identity, so the kernel program's aggregate is the plain one. -/
theorem midK_eq (h : (⟨S100000x64, .f32⟩ : BufTy).Contents (Elt Ideal)) (s d : (⟨S1700000, .i32⟩ : BufTy).Contents (Elt Ideal))
    (n : (⟨S1700000, .f32⟩ : BufTy).Contents (Elt Ideal)) : midK Ideal h s d n = aggOf Ideal h s d n := rfl

end Cert.Gcn

end
-- ==== Proof.HostSide.lean ====
/-
  The host stretches of the kernel program, read at the buffers the two regions and the result depend on.

  The buffer contents at the segment boundaries are a fold through @main (`Gen.W0` … `Gen.W7`).  Read at one buffer,
  a stretch's fold is the operations' composed function of what the stretch found:
  * before the first region, the edge endpoints with their self loops (`src`, `dst`), the edge weights (`nrm`) — functions
    of the edge list alone — and the arguments themselves, which no operation writes;
  * between the regions, the aggregate of the first region's result re-laid as [50000, 128], and the bias twice;
  * after the second region, its result re-laid as [100000, 64].
-/
import proofs.«122177_j62062277427822_2_alg».proof.Proof.Gen.KernelIdeal.Frame
import proofs.«122177_j62062277427822_2_alg».proof.Proof.Chain
import Idealize.ShloMosaic.Lib.StableHlo.Run

set_option maxRecDepth 16384

noncomputable section

namespace Cert.KernelIdeal.Fold

open Cert.KernelIdeal Cert.KernelIdeal.Gen Cert.KernelIdeal.Facts₀ Cert.Gcn
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region -/

set_option maxHeartbeats 4000000 in
/-- The source endpoints with the self loops, from the edge list. -/
theorem W3_src (c : Dev nD) : W3 m ρ c (Proc.devRef .tc main_v3) = src F (m ((c : Thread nD τ).loc main_arg1)) := by
  show StableHlo.after hostOps0_2 (StableHlo.after hostOps0_1 (StableHlo.after hostOps0 (W0 m ρ c))) (Proc.devRef .tc main_v3) = _
  after_results_simp <;> rfl

set_option maxHeartbeats 4000000 in
/-- The target endpoints with the self loops, from the edge list. -/
theorem W3_dst (c : Dev nD) : W3 m ρ c (Proc.devRef .tc main_v6) = dst F (m ((c : Thread nD τ).loc main_arg1)) := by
  show StableHlo.after hostOps0_2 (StableHlo.after hostOps0_1 (StableHlo.after hostOps0 (W0 m ρ c))) (Proc.devRef .tc main_v6) = _
  after_results_simp <;> rfl

set_option maxHeartbeats 4000000 in
/-- The edge weights, from the edge list. -/
theorem W3_nrm (c : Dev nD) : W3 m ρ c (Proc.devRef .tc main_v29) = nrm F (m ((c : Thread nD τ).loc main_arg1)) := by
  show StableHlo.after hostOps0_2 (StableHlo.after hostOps0_1 (StableHlo.after hostOps0 (W0 m ρ c))) (Proc.devRef .tc main_v29) = _
  after_results_simp <;> rfl

set_option maxHeartbeats 4000000 in
/-- The features, the weight matrix and the bias are as launched when the first region is entered. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
set_option maxHeartbeats 4000000 in
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
set_option maxHeartbeats 4000000 in
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

/-! ## Between the regions -/

set_option maxHeartbeats 4000000 in
/-- The second region's first array: the aggregate of the first region's result, re-laid as [50000, 128]. -/
theorem W5_v46 (c : Dev nD) : W5 m ρ c (Proc.devRef .tc main_v46)
    = shapeCast S50000x128 (midK F (W4 m ρ c (Proc.devRef .tc main_v30)) (W4 m ρ c (Proc.devRef .tc main_v3)) (W4 m ρ c (Proc.devRef .tc main_v6)) (W4 m ρ c (Proc.devRef .tc main_v29))) Facts₀.shapeCasts_S100000x64_S50000x128 := by
  show StableHlo.after hostOps1 (W4 m ρ c) (Proc.devRef .tc main_v46) = _
  after_results_simp <;> rfl

set_option maxHeartbeats 4000000 in
/-- The second region's second array: the bias twice. -/
theorem W5_v49 (c : Dev nD) : W5 m ρ c (Proc.devRef .tc main_v49) = bias2 F (W4 m ρ c (Proc.devRef .tc main_arg3)) := by
  show StableHlo.after hostOps1 (W4 m ρ c) (Proc.devRef .tc main_v49) = _
  after_results_simp <;> rfl

/-! ## After the second region -/

/-- The result: the second region's array re-laid as [100000, 64]. -/
theorem W7_v51 (c : Dev nD) : W7 m ρ c (Proc.devRef .tc main_v51)
    = shapeCast S100000x64 (W6 m ρ c (Proc.devRef .tc main_v50)) Facts₀.shapeCasts_S50000x128_S100000x64 := by
  show StableHlo.after hostOps2 (W6 m ρ c) (Proc.devRef .tc main_v51) = _
  after_results_simp <;> rfl

end Cert.KernelIdeal.Fold

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«122177_j62062277427822_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«122177_j62062277427822_2_alg».proof.Proof.LibDenseRows
import proofs.«122177_j62062277427822_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.MatmulBlocks.lean ====
/-
  The first region: the node features times the weight matrix, ten row blocks of 10000 rows each.

  At grid point t the body loads rows 10000·t … 10000·t + 9999 of the features (a [10000, 128] block) and the whole
  [128, 64] weight matrix, multiplies them into a zero accumulator and stores the [10000, 64] product; the pipeline
  writes it back as rows 10000·t … of the result.  An entry (p, q) of the block's product is Σ_k x(10000·t + p, k) · w(k, q):
  block t of ONE array `MM x w`, the plain matrix product.  The ten blocks tile the result's rows, so after the region the
  result array is `MM x w` of the two arrays as the region found them.  (On the extended reals the narrowing of the
  operands to the 16-bit format is the identity, and a sum into a zero accumulator is the sum.)
-/
import proofs.«122177_j62062277427822_2_alg».proof.Proof.Gen.KernelIdeal.Frame
import proofs.«122177_j62062277427822_2_alg».proof.Proof.LibPlainLayers
import Idealize.ShloMosaic.Lib.Pipeline.Value
import Idealize.ShloMosaic.Lib.ValueIdx

set_option maxRecDepth 16384

noncomputable section

open scoped BigOperators

namespace Cert.KernelIdeal.Mm

open Cert.KernelIdeal Cert.KernelIdeal.Gen
open Idealize.ShloMosaic Idealize.ShloMosaic.TcCoe Idealize.ShloMosaic.ValueIdx Idealize.SL.Sem
open Idealize.ShloMosaic.Pipeline (Dat)

/-- The plain product of a [100000, 128] array with a [128, 64] array, entry by entry. -/
def MM (x : S100000x128.Idx → EReal) (w : S128x64.Idx → EReal) : S100000x64.Idx → EReal :=
  fun i => ∑ k : Fin 128, x (ix2 (⟨(i 0).val, idx2_lt0 i⟩ : Fin 100000) k) * w (ix2 k (⟨(i 1).val, idx2_lt1 i⟩ : Fin 64))

theorem MM_apply (x : S100000x128.Idx → EReal) (w : S128x64.Idx → EReal) (r : Fin 100000) (j : Fin 64) :
    MM x w (ix2 r j) = ∑ k : Fin 128, x (ix2 r k) * w (ix2 k j) := rfl

theorem hz : (![0, 0] : Fin 2 → Nat) = fun _ => 0 := funext fun a => by fin_cases a <;> rfl

/-- The body's stored value at (p, q): row p of the loaded feature block against column q of the loaded weights. -/
theorem pay_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  exact Cert.PlainLayers.plainMM_of_eq _ rfl none (truncf .bf16 x0 bitsLt_bf16_f32) (truncf .bf16 x1 bitsLt_bf16_f32) p q

/-- The stored block is block tv of the product, when the loaded blocks are rows 10000·tv … of X and the whole of W. -/
theorem pay_eq_MM (x0 : Vec Ideal S10000x128 .f32) (x1 : Vec Ideal S128x64 .f32) (X : S100000x128.Idx → EReal) (W : S128x64.Idx → EReal) (tv : ℕ)
    (h0 : ∀ (p : Fin 10000) (k : Fin 128) (r : Fin 100000), r.val = 10000 * tv + p.val → x0 (ix2 p k) = X (ix2 r k))
    (h1 : ∀ (k : Fin 128) (q : Fin 64), x1 (ix2 k q) = W (ix2 k q))
    (y : S10000x64.Idx) (i : S100000x64.Idx) (hi0 : (i 0).val = 10000 * tv + (y 0).val) (hi1 : (i 1).val = (y 1).val) :
    k0_pay1 x0 x1 y = MM X W i := by
  obtain ⟨p, q, rfl⟩ : ∃ (p : Fin 10000) (q : Fin 64), y = ix2 p q := ⟨y 0, y 1, eq_ix2 y⟩
  obtain ⟨r, j, rfl⟩ : ∃ (r : Fin 100000) (j : Fin 64), i = ix2 r j := ⟨i 0, i 1, eq_ix2 i⟩
  obtain rfl : j = q := Fin.ext hi1
  rw [pay_apply, MM_apply]
  exact Finset.sum_congr rfl fun k _ => by rw [h0 p k r hi0, h1]

section Region

variable (V : (c : Dev nD) → (b : Ref sig .tc) → Buf (Elt Ideal) ((c : Thread nD τ).loc b))

/-- The printed index maps over the grid: the feature window and the result window are at row block t, the weights at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t is rows 10000·t … of the feature array. -/
theorem blk_x (c : Dev nD) (t : Fin cfg0.N) (p : Fin 10000) (k : Fin 128) (r : Fin 100000) (hr : r.val = 10000 * t.val + p.val) :
    (iblk0 V c 0 t : Vec Ideal S10000x128 .f32) (ix2 p k) = (V c main_arg0 : S100000x128.Idx → EReal) (ix2 r k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The weight window's block at every point is the whole weight array. -/
theorem blk_w (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e2, e3, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- What point t writes back is block t of the product of the two arrays as the region found them. -/
theorem flushed_eq (c : Dev nD) (t : Fin cfg0.N) :
    (dat0 V c).flushed 2 t = ((cfg0.win 2).blk t).view.read (Elt Ideal) (MM (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨-, -, -, -, e4, e5⟩ := idx_facts t
  funext y
  refine pay_eq_MM _ _ _ _ t.val (fun p k r hr => blk_x V c t p k r hr) (fun k q => blk_w V c t k q) y _ ?_ ?_
  · show win0_2.index t (0 : Fin 2) * 10000 + 1 * (y 0).val = 10000 * t.val + (y 0).val; rw [e4]; omega
  · show win0_2.index t (1 : Fin 2) * 64 + 1 * (y 1).val = (y 1).val; rw [e5]; omega

/-- An index of the result is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- After the region the result array is the product of the feature and weight arrays as the region found them. -/
theorem final (c : Dev nD) : (dat0 V c).arrAt 2 cfg0.N = MM (V c main_arg0) (V c main_arg2) :=
  (dat0 V c).arrAt_eq_of_cover 2 (MM (V c main_arg0) (V c main_arg2)) (fun t _ => flushed_eq V c t) fun i => by
    have hi0 : (i 0).val < 100000 := (i 0).isLt
    have hi1 : (i 1).val < 64 := (i 1).isLt
    have hN : cfg0.N = 10 := N_0
    refine ⟨⟨(i 0).val / 10000, by rw [hN]; omega⟩, flush0_2 _, ?_⟩
    rw [mem_blk]
    obtain ⟨-, -, -, -, e4, e5⟩ := idx_facts ⟨(i 0).val / 10000, by rw [hN]; omega⟩
    intro a
    match a with
    | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
    | ⟨1, _⟩ => show win0_2.index _ (1 : Fin 2) * 64 ≤ (i 1).val ∧ (i 1).val < win0_2.index _ (1 : Fin 2) * 64 + 64; rw [e5]; omega

end Region

end Cert.KernelIdeal.Mm

end
-- ==== Proof.BiasBlocks.lean ====
/-
  The second region: bias added and the result cut at zero, five row blocks of the [50000, 128] re-laying.

  At grid point t the body loads rows 10000·t … 10000·t + 9999 of the re-laid aggregate (a [10000, 128] block) and the whole
  128-vector (the bias twice), adds the vector to every row and takes the maximum with zero.  An entry (p, q) of what it stores
  is max (a(10000·t + p, q) + b(q), 0): block t of ONE array `BR a b`.  The five blocks tile the rows, so after the region the
  result array is `BR a b` of the two arrays as the region found them.
-/
import proofs.«122177_j62062277427822_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Br

open Cert.KernelIdeal Cert.KernelIdeal.Gen
open Idealize.ShloMosaic Idealize.ShloMosaic.TcCoe Idealize.ShloMosaic.ValueIdx Idealize.SL.Sem
open Idealize.ShloMosaic.Pipeline (Dat)

/-- A [50000, 128] array plus a 128-vector on every row, cut at zero, entry by entry. -/
def BR (a : S50000x128.Idx → EReal) (b : S128.Idx → EReal) : S50000x128.Idx → EReal :=
  fun i => max (a i + b (ix1 (⟨(i 1).val, idx2_lt1 i⟩ : Fin 128))) 0

theorem BR_apply (a : S50000x128.Idx → EReal) (b : S128.Idx → EReal) (r : Fin 50000) (q : Fin 128) :
    BR a b (ix2 r q) = max (a (ix2 r q) + b (ix1 q)) 0 := rfl

theorem hz : (![0, 0] : Fin 2 → Nat) = fun _ => 0 := funext fun a => by fin_cases a <;> rfl
theorem hz1 : (![0] : Fin 1 → Nat) = fun _ => 0 := funext fun a => by fin_cases a; rfl

/-- The body's stored value at (p, q): the loaded row entry plus the vector's entry q, cut at zero. -/
theorem pay_apply (x0 : Vec Ideal S10000x128 .f32) (x1 : Vec Ideal S128 .f32) (p : Fin 10000) (q : Fin 128) :
    k1_pay1 x0 x1 (ix2 p q) = max (x0 (ix2 p q) + x1 (ix1 q)) 0 := by
  unfold k1_pay1
  exact congrArg₂ max
    (congrArg₂ (· + ·) (congrFun (shapeCast_self x0 shapeCasts_S10000x128_S10000x128) (ix2 p q))
      ((broadcastTo_1b_ab_apply _ broadcasts_S1x128_S10000x128 p q).trans (shapeCast_a_1a_apply x1 shapeCasts_S128_S1x128 0 q)))
    Ideal.ofBits_zero_f32

/-- The stored block is block tv of `BR A B`, when the loaded blocks are rows 10000·tv … of A and the whole of B. -/
theorem pay_eq_BR (x0 : Vec Ideal S10000x128 .f32) (x1 : Vec Ideal S128 .f32) (A : S50000x128.Idx → EReal) (B : S128.Idx → EReal) (tv : ℕ)
    (h0 : ∀ (p : Fin 10000) (q : Fin 128) (r : Fin 50000), r.val = 10000 * tv + p.val → x0 (ix2 p q) = A (ix2 r q))
    (h1 : ∀ q : Fin 128, x1 (ix1 q) = B (ix1 q))
    (y : S10000x128.Idx) (i : S50000x128.Idx) (hi0 : (i 0).val = 10000 * tv + (y 0).val) (hi1 : (i 1).val = (y 1).val) :
    k1_pay1 x0 x1 y = BR A B i := by
  obtain ⟨p, q, rfl⟩ : ∃ (p : Fin 10000) (q : Fin 128), y = ix2 p q := ⟨y 0, y 1, eq_ix2 y⟩
  obtain ⟨r, j, rfl⟩ : ∃ (r : Fin 50000) (j : Fin 128), i = ix2 r j := ⟨i 0, i 1, eq_ix2 i⟩
  obtain rfl : j = q := Fin.ext hi1
  rw [pay_apply, BR_apply, h0 p j r hi0, h1]

section Region

variable (V : (c : Dev nD) → (b : Ref sig .tc) → Buf (Elt Ideal) ((c : Thread nD τ).loc b))

/-- The printed index maps over the grid: the aggregate's window and the result window are at row block t, the vector at block 0. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The first window's block at point t is rows 10000·t … of the re-laid aggregate. -/
theorem blk_a (c : Dev nD) (t : Fin cfg1.N) (p : Fin 10000) (q : Fin 128) (r : Fin 50000) (hr : r.val = 10000 * t.val + p.val) :
    (iblk1 V c 0 t : Vec Ideal S10000x128 .f32) (ix2 p q) = (V c main_v46 : S50000x128.Idx → EReal) (ix2 r q) := by
  obtain ⟨e0, e1, -⟩ := idx_facts t
  unfold iblk1
  rw [View.read_apply]
  show V c main_v46 _ = V c main_v46 _
  refine congrArg (V c main_v46) (funext fun a => Fin.ext ?_)
  match a with
  | ⟨0, _⟩ => show win1_0.index t (0 : Fin 2) * 10000 + 1 * p.val = r.val; rw [e0, hr]; omega
  | ⟨1, _⟩ => show win1_0.index t (1 : Fin 2) * 128 + 1 * q.val = q.val; rw [e1]; omega

/-- The second window's block at every point is the whole 128-vector. -/
theorem blk_b (c : Dev nD) (t : Fin cfg1.N) (q : Fin 128) :
    (iblk1 V c 1 t : Vec Ideal S128 .f32) (ix1 q) = (V c main_v49 : S128.Idx → EReal) (ix1 q) := by
  obtain ⟨-, -, e2, -⟩ := idx_facts t
  unfold iblk1
  rw [View.read_apply]
  show V c main_v49 _ = V c main_v49 _
  refine congrArg (V c main_v49) (funext fun a => Fin.ext ?_)
  match a with
  | ⟨0, _⟩ => show win1_1.index t (0 : Fin 1) * 128 + 1 * q.val = q.val; rw [e2]; omega

/-- What point t writes back is block t of `BR` of the two arrays as the region found them. -/
theorem flushed_eq (c : Dev nD) (t : Fin cfg1.N) :
    (dat1 V c).flushed 2 t = ((cfg1.win 2).blk t).view.read (Elt Ideal) (BR (V c main_v46) (V c main_v49)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128) hz1]
  obtain ⟨-, -, -, e3, e4⟩ := idx_facts t
  funext y
  refine pay_eq_BR _ _ _ _ t.val (fun p q r hr => blk_a V c t p q r hr) (fun q => blk_b V c t q) y _ ?_ ?_
  · show win1_2.index t (0 : Fin 2) * 10000 + 1 * (y 0).val = 10000 * t.val + (y 0).val; rw [e3]; omega
  · show win1_2.index t (1 : Fin 2) * 128 + 1 * (y 1).val = (y 1).val; rw [e4]; omega

/-- An index of the result is in point t's block iff each coordinate is in the block's range on its axis. -/
theorem mem_blk (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v50).slice (win1_2.rect t)).set ↔ _
  rw [View.set_slice_whole, Rect.mem_set_unit]
  exact Iff.rfl

/-- After the region the result array is `BR` of the re-laid aggregate and the doubled bias as the region found them. -/
theorem final (c : Dev nD) : (dat1 V c).arrAt 2 cfg1.N = BR (V c main_v46) (V c main_v49) :=
  (dat1 V c).arrAt_eq_of_cover 2 (BR (V c main_v46) (V c main_v49)) (fun t _ => flushed_eq V c t) fun i => by
    have hi0 : (i 0).val < 50000 := (i 0).isLt
    have hi1 : (i 1).val < 128 := (i 1).isLt
    have hN : cfg1.N = 5 := N_1
    refine ⟨⟨(i 0).val / 10000, by rw [hN]; omega⟩, flush1_2 _, ?_⟩
    rw [mem_blk]
    obtain ⟨-, -, -, e3, e4⟩ := idx_facts ⟨(i 0).val / 10000, by rw [hN]; omega⟩
    intro a
    match a with
    | ⟨0, _⟩ => show win1_2.index _ (0 : Fin 2) * 10000 ≤ (i 0).val ∧ (i 0).val < win1_2.index _ (0 : Fin 2) * 10000 + 10000; rw [e3]; show (i 0).val / 10000 * 10000 ≤ (i 0).val ∧ (i 0).val < (i 0).val / 10000 * 10000 + 10000; omega
    | ⟨1, _⟩ => show win1_2.index _ (1 : Fin 2) * 128 ≤ (i 1).val ∧ (i 1).val < win1_2.index _ (1 : Fin 2) * 128 + 128; rw [e4]; omega

end Region

end Cert.KernelIdeal.Br

end
-- ==== Proof.KernelValue.lean ====
/-
  The idealized kernel program's result as ONE function of its four arguments.

  Reading the run backwards: the result is the second region's array re-laid as [100000, 64]; that array is, entry by entry,
  the re-laid aggregate plus the doubled bias, cut at zero (the five row blocks tile it); the aggregate is the graph part applied
  to the first region's array; and that array is the plain product of the features with the weights (the ten row blocks tile it).
  The edge endpoints, the edge weights and the arguments reach the regions unchanged through the stretches in between.
-/
import proofs.«122177_j62062277427822_2_alg».proof.Proof.HostSide
import proofs.«122177_j62062277427822_2_alg».proof.Proof.MatmulBlocks
import proofs.«122177_j62062277427822_2_alg».proof.Proof.BiasBlocks

set_option maxRecDepth 16384

noncomputable section

namespace Cert.KernelIdeal.Whole

open Cert.KernelIdeal Cert.KernelIdeal.Gen Cert.Gcn
open Idealize.ShloMosaic Idealize.ShloMosaic.TcCoe Idealize.SL.Sem

/-- The layer as the kernel program computes it, from the features, the edge list, the weights and the bias. -/
def layerK (x : FVec Ideal S100000x128 .f32) (ei : (⟨S2x1600000, .i32⟩ : BufTy).Contents (Elt Ideal))
    (w : FVec Ideal S128x64 .f32) (b : FVec Ideal S64 .f32) : FVec Ideal S100000x64 .f32 :=
  shapeCast S100000x64
    (Br.BR (shapeCast S50000x128 (midK Ideal (Mm.MM x w) (src Ideal ei) (dst Ideal ei) (nrm Ideal ei)) Facts₀.shapeCasts_S100000x64_S50000x128)
      (bias2 Ideal b))
    Facts₀.shapeCasts_S50000x128_S100000x64

variable (m : (ℓ : Loc nD τ sig) → Buf (Elt Ideal) ℓ) (ρ : Dev nD → PrngReg)

/-- The last boundary's contents at the result buffer are the layer of the four arguments' launch contents. -/
theorem result_eq (c : Dev nD) : W7 m ρ c (Proc.devRef .tc main_v51)
    = layerK (m ((c : Thread nD τ).loc main_arg0)) (m ((c : Thread nD τ).loc main_arg1))
        (m ((c : Thread nD τ).loc main_arg2)) (m ((c : Thread nD τ).loc main_arg3)) := by
  have e50 : W6 m ρ c (Proc.devRef .tc main_v50) = Br.BR (W5 m ρ c (Proc.devRef .tc main_v46)) (W5 m ρ c (Proc.devRef .tc main_v49)) :=
    (W6_arr m ρ c 2).trans (Br.final (V5 m ρ) c)
  have e30 : W4 m ρ c (Proc.devRef .tc main_v30) = Mm.MM (W3 m ρ c (Proc.devRef .tc main_arg0)) (W3 m ρ c (Proc.devRef .tc main_arg2)) :=
    (W4_arr m ρ c 2).trans (Mm.final (V3 m ρ) c)
  rw [Fold.W7_v51, e50, Fold.W5_v46, Fold.W5_v49, e30, Fold.W3_arg0, Fold.W3_arg2,
    W4_of_ne m ρ c main_v3 (by decide), W4_of_ne m ρ c main_v6 (by decide), W4_of_ne m ρ c main_v29 (by decide),
    W4_of_ne m ρ c main_arg3 (by decide), Fold.W3_src, Fold.W3_dst, Fold.W3_nrm, Fold.W3_arg3]
  rfl

end Cert.KernelIdeal.Whole

end
-- ==== Proof.RefSide.lean ====
/-
  The reference's result, read as the layer's formula: the aggregate of the plain product of the features with the weights,
  plus the bias on every row, cut at zero — the graph part spelt with the shared functions (`Cert.Gcn.aggOf`, `src`, `dst`, `nrm`).
  The reference run states the result as one long composed term of the arguments; that term IS this formula, operation by operation.
-/
import proofs.«122177_j62062277427822_2_alg».proof.Proof.RefRunP
import proofs.«122177_j62062277427822_2_alg».proof.Proof.Chain

set_option maxRecDepth 16384

noncomputable section

namespace Cert.ReferenceIdeal.RefValue

open Cert.ReferenceIdeal Cert.ReferenceIdeal.Facts₀
open Idealize.ShloMosaic Idealize.ShloMosaic.TcCoe Idealize.SL.Sem

/-- The layer as the reference spells it, from the features, the edge list, the weights and the bias. -/
def layer (x : FVec Ideal S100000x128 .f32) (ei : (⟨S2x1600000, .i32⟩ : BufTy).Contents (Elt Ideal))
    (w : FVec Ideal S128x64 .f32) (b : FVec Ideal S64 .f32) : FVec Ideal S100000x64 .f32 :=
  maximumf
    (addf (Cert.Gcn.aggOf Ideal (Host.dotGeneral (F := Ideal) dot_S100000x128_S128x64_S100000x64_1_0_0_1_n_n none x w)
        (Cert.Gcn.src Ideal ei) (Cert.Gcn.dst Ideal ei) (Cert.Gcn.nrm Ideal ei))
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

set_option maxHeartbeats 4000000 in
/-- The reference run's composed term is the layer's formula of the launch contents of the four arguments. -/
theorem res_eq (m : (ℓ : Loc nD τ sig) → Buf (Elt Ideal) ℓ) (c : Dev nD) :
    Cert.ReferenceIdeal.ValueP.res_main_v47 (F := Ideal) m c
      = layer (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v47
  rfl

end Cert.ReferenceIdeal.RefValue

end
-- ==== Proof.LibGraphConv.lean ====
/-
  General lemmas for graph-convolution layers, read at the exact (extended-real) instance, one entry at a time.
  A layer's value at node p, feature j is  max (agg (p, j) + d p · h (p, j) + b j) 0 : the neighbours' weighted sum,
  plus the node's own row weighted by its self-loop coefficient, plus the bias, cut at zero.

  * `hostMM_apply`: the host's product of an [M, K] by a [K, N] array, at (p, j), is the plain sum over k.
  * `hostCol_apply`: an [a, 1] column laid along the rows by the host reads, at (p, j), the column at p.
  * `hostDense_apply`: the host's product plus a [1, N] bias row laid down the rows.
  * `hostConv_apply`: the layer as a host program spells it (host broadcasts, maximum with the zero scalar broadcast).
  * `bodyConv_apply`: the layer as a kernel body spells it (identity recasts, vector broadcasts, maximum with a zero splat).
  Both spellings read the same number, so a kernel tile and the host's whole array agree entry by entry.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«122177_j62062277427822_2_alg».proof.Proof.LibPlainLayers

noncomputable section

open scoped BigOperators

namespace Cert.GraphConv

open Idealize.ShloMosaic Idealize.ShloMosaic.ValueIdx

variable {M K N : ℕ}

/-- The host's product of an [M, K] array with a [K, N] array at (p, j): the sum over k of left (p, k) times right (k, j). -/
theorem hostMM_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (w : FVec Ideal ⟨2, ![K, N]⟩ φ₂) (p : Fin M) (j : Fin N) :
    Host.dotGeneral D prec x w (ix2 p j) = ∑ k : Fin K, x (ix2 p k) * w (ix2 k j) := by
  rw [← matmul_zero_eq_dotGeneral]
  exact Cert.PlainLayers.plainMM_of_eq D hD prec x w p j

/-- An [a, 1] column laid along the rows of an [a, b] array by the host reads, at (p, j), the column's entry of row p. -/
theorem hostCol_apply {α : Type} {a b : ℕ} (h : (⟨2, ![a, 1]⟩ : Shape).BroadcastsInDim ⟨2, ![a, b]⟩ ![0, 1])
    (v : (⟨2, ![a, 1]⟩ : Shape).Idx → α) (p : Fin a) (j : Fin b) :
    broadcastInDim ⟨2, ![a, b]⟩ ![0, 1] h v (ix2 p j) = v (ix2 p (0 : Fin 1)) := by
  refine broadcastInDim_apply ![0, 1] h v (ix2 p j) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else j.val
    rw [if_pos rfl]

/-- The host's product plus a [1, N] bias row laid down the rows, at (p, j). -/
theorem hostDense_apply (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hb : (⟨2, ![1, N]⟩ : Shape).BroadcastsInDim ⟨2, ![M, N]⟩ ![0, 1]) (p : Fin M) (j : Fin N) :
    addf (Host.dotGeneral D prec x w) (broadcastInDim ⟨2, ![M, N]⟩ ![0, 1] hb b) (ix2 p j)
      = (∑ k : Fin K, x (ix2 p k) * w (ix2 k j)) + b (ix2 (0 : Fin 1) j) :=
  congrArg₂ (· + ·) (hostMM_apply D hD prec x w p j) (broadcastInDim_oneRow_apply hb b p j)

/-- The layer as a host program spells it, at (p, j). -/
theorem hostConv_apply {a b : ℕ} {s0 : Shape} (hd : (⟨2, ![a, 1]⟩ : Shape).BroadcastsInDim ⟨2, ![a, b]⟩ ![0, 1])
    (hb : (⟨2, ![1, b]⟩ : Shape).BroadcastsInDim ⟨2, ![a, b]⟩ ![0, 1])
    (dz : Fin s0.rank → Fin (⟨2, ![a, b]⟩ : Shape).rank) (hz : s0.BroadcastsInDim ⟨2, ![a, b]⟩ dz)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf agg (mulf (broadcastInDim ⟨2, ![a, b]⟩ ![0, 1] hd d) h)) (broadcastInDim ⟨2, ![a, b]⟩ ![0, 1] hb bias))
        (broadcastInDim ⟨2, ![a, b]⟩ dz hz (constant s0 .f32 0x00000000#32)) (ix2 p j)
      = max ((agg (ix2 p j) + d (ix2 p (0 : Fin 1)) * h (ix2 p j)) + bias (ix2 (0 : Fin 1) j)) 0 :=
  congrArg₂ max
    (congrArg₂ (· + ·) (congrArg (agg (ix2 p j) + ·) (congrArg (· * h (ix2 p j)) (hostCol_apply hd d p j)))
      (broadcastInDim_oneRow_apply hb bias p j))
    Ideal.ofBits_zero_f32

/-- The layer as a kernel body spells it on one tile, at (p, j): the recasts are of a shape to itself. -/
theorem bodyConv_apply {a b : ℕ} (ca : (⟨2, ![a, b]⟩ : Shape).ShapeCasts ⟨2, ![a, b]⟩)
    (cd : (⟨2, ![a, 1]⟩ : Shape).ShapeCasts ⟨2, ![a, 1]⟩) (cb : (⟨2, ![1, b]⟩ : Shape).ShapeCasts ⟨2, ![1, b]⟩)
    (hd : (⟨2, ![a, 1]⟩ : Shape).Broadcasts ⟨2, ![a, b]⟩) (hb : (⟨2, ![1, b]⟩ : Shape).Broadcasts ⟨2, ![a, b]⟩)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf (shapeCast ⟨2, ![a, b]⟩ agg ca)
          (mulf (broadcastTo ⟨2, ![a, b]⟩ (shapeCast ⟨2, ![a, 1]⟩ d cd) hd) (shapeCast ⟨2, ![a, b]⟩ h ca)))
        (broadcastTo ⟨2, ![a, b]⟩ (shapeCast ⟨2, ![1, b]⟩ bias cb) hb))
        (broadcast ⟨2, ![a, b]⟩ (Scalar.ofBits (F := Ideal) .f32 0x00000000#32)) (ix2 p j)
      = max ((agg (ix2 p j) + d (ix2 p (0 : Fin 1)) * h (ix2 p j)) + bias (ix2 (0 : Fin 1) j)) 0 :=
  congrArg₂ max
    (congrArg₂ (· + ·)
      (congrArg₂ (· + ·) (congrFun (shapeCast_self agg ca) _)
        (congrArg₂ (· * ·) ((Cert.Columns.broadcastTo_a1_ab_apply _ hd p j).trans (congrFun (shapeCast_self d cd) _))
          (congrFun (shapeCast_self h ca) _)))
      ((broadcastTo_1b_ab_apply _ hb p j).trans (congrFun (shapeCast_self bias cb) _)))
    Ideal.ofBits_zero_f32

end Cert.GraphConv

end
-- ==== Proof.Bridge.lean ====
/-
  The two layers are one function.  At node n, feature j both read  max (agg (n, j) + bias j, 0):

  * the reference adds the bias row to the aggregate and cuts at zero in the [100000, 64] layout;
  * the kernel program re-lays the aggregate as [50000, 128] (two nodes per row), adds the bias laid twice, cuts at zero, and re-lays
    the result back: entry (n, j) sits at row-major position 64·n + j in both layouts, i.e. at row (64·n + j) / 128 and column
    (64·n + j) % 128 of the paired layout, and column q of the doubled bias is bias (q % 64) = bias j.
  The aggregates agree because the graph part is the same function on both sides and its argument is the same array: the plain
  product of the features with the weights is what the host's general product computes, entry by entry.
-/
import proofs.«122177_j62062277427822_2_alg».proof.Proof.KernelValue
import proofs.«122177_j62062277427822_2_alg».proof.Proof.RefSide
import proofs.«122177_j62062277427822_2_alg».proof.Proof.LibGraphConv
import Idealize.ShloMosaic.Lib.KernelVsHost

set_option maxRecDepth 16384

noncomputable section

open scoped BigOperators

namespace Cert.Gcn

open Cert.KernelIdeal
open Idealize.ShloMosaic Idealize.ShloMosaic.ValueIdx

/-- The block-assembled product is the host's general product of the same two arrays. -/
theorem MM_eq_dot (x : FVec Ideal S100000x128 .f32) (w : FVec Ideal S128x64 .f32) :
    Cert.KernelIdeal.Mm.MM x w
      = Host.dotGeneral (F := Ideal) Cert.ReferenceIdeal.dot_S100000x128_S128x64_S100000x64_1_0_0_1_n_n none x w := by
  funext i
  obtain ⟨p, j, rfl⟩ : ∃ (p : Fin 100000) (j : Fin 64), i = ix2 p j := ⟨i 0, i 1, eq_ix2 i⟩
  exact (Cert.KernelIdeal.Mm.MM_apply x w p j).trans
    (Cert.GraphConv.hostMM_apply Cert.ReferenceIdeal.dot_S100000x128_S128x64_S100000x64_1_0_0_1_n_n rfl none x w p j).symm

/-- Column q of the doubled bias is the bias at j, when q is j or 64 + j. -/
theorem bias2_apply (b : FVec Ideal S64 .f32) (q : Fin 128) (j : Fin 64) (hq : q.val % 64 = j.val) :
    bias2 Ideal b (ix1 q) = b (ix1 j) := by
  unfold bias2
  have hu : q.val / 64 < 2 := by have := q.isLt; omega
  refine (shapeCast_apply _ Facts₀.shapeCasts_S2x64_S128 (ix1 q) (ix2 (⟨q.val / 64, hu⟩ : Fin 2) j) ?_).trans ?_
  · rw [Shape.rowMajor_val_two, Shape.rowMajor_val_one]
    show q.val / 64 * 64 + j.val = q.val
    omega
  · exact (broadcastInDim_oneRow_apply Facts₀.bcast_S1x64_S2x64_0_1 _ (⟨q.val / 64, hu⟩ : Fin 2) j).trans
      (shapeCast_a_1a_apply b Facts₀.shapeCasts_S64_S1x64 0 j)

/-- The bias row laid down the rows by the reference, at (n, j). -/
theorem biasRows_apply (b : FVec Ideal S64 .f32) (n : Fin 100000) (j : Fin 64) :
    broadcastInDim Cert.ReferenceIdeal.S100000x64 ![0, 1] Cert.ReferenceIdeal.Facts₀.bcast_S1x64_S100000x64_0_1
      (broadcastInDim Cert.ReferenceIdeal.S1x64 ![1] Cert.ReferenceIdeal.Facts₀.bcast_S64_S1x64_1 b) (ix2 n j) = b (ix1 j) := by
  refine (broadcastInDim_oneRow_apply Cert.ReferenceIdeal.Facts₀.bcast_S1x64_S100000x64_0_1 _ n j).trans ?_
  refine broadcastInDim_apply ![1] Cert.ReferenceIdeal.Facts₀.bcast_S64_S1x64_1 b (ix2 (0 : Fin 1) j) (ix1 j) fun a => ?_
  match a with
  | ⟨0, _⟩ =>
    show j.val = if (64 : ℕ) = 1 then 0 else j.val
    rw [if_neg (by decide)]

/-- The kernel program's epilogue on ANY [100000, 64] array A, at (n, j): pairing the rows, adding the doubled bias, cutting at zero
    and undoing the pairing reads max (A (n, j) + bias j, 0). -/
theorem epilogueK_apply (A : FVec Ideal S100000x64 .f32) (b : FVec Ideal S64 .f32) (n : Fin 100000) (j : Fin 64) :
    shapeCast S100000x64 (Cert.KernelIdeal.Br.BR (shapeCast S50000x128 A Facts₀.shapeCasts_S100000x64_S50000x128) (bias2 Ideal b))
        Facts₀.shapeCasts_S50000x128_S100000x64 (ix2 n j)
      = max (A (ix2 n j) + b (ix1 j)) 0 := by
  have hn := n.isLt
  have hj := j.isLt
  have hr : (64 * n.val + j.val) / 128 < 50000 := by omega
  have hq : (64 * n.val + j.val) % 128 < 128 := by omega
  refine (shapeCast_apply _ Facts₀.shapeCasts_S50000x128_S100000x64 (ix2 n j)
    (ix2 (⟨(64 * n.val + j.val) / 128, hr⟩ : Fin 50000) (⟨(64 * n.val + j.val) % 128, hq⟩ : Fin 128)) ?_).trans ?_
  · rw [Shape.rowMajor_val_two, Shape.rowMajor_val_two]
    show (64 * n.val + j.val) / 128 * 128 + (64 * n.val + j.val) % 128 = n.val * 64 + j.val
    omega
  rw [Cert.KernelIdeal.Br.BR_apply]
  refine congrArg₂ (fun u v : EReal => max (u + v) 0) ?_ ?_
  · refine shapeCast_apply A Facts₀.shapeCasts_S100000x64_S50000x128 _ (ix2 n j) ?_
    rw [Shape.rowMajor_val_two, Shape.rowMajor_val_two]
    show n.val * 64 + j.val = (64 * n.val + j.val) / 128 * 128 + (64 * n.val + j.val) % 128
    omega
  · exact bias2_apply b _ j (by show (64 * n.val + j.val) % 128 % 64 = j.val; omega)

/-- The reference's epilogue on ANY [100000, 64] array A, at (n, j): the bias row added, the maximum with zero. -/
theorem epilogueR_apply (A : FVec Ideal Cert.ReferenceIdeal.S100000x64 .f32) (b : FVec Ideal S64 .f32) (n : Fin 100000) (j : Fin 64) :
    maximumf
        (addf A (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 b)))
        (broadcastInDim Cert.ReferenceIdeal.S100000x64 ![] Cert.ReferenceIdeal.Facts₀.bcast_S_S100000x64 (constant (F := Ideal) Cert.ReferenceIdeal.S_ .f32 0x00000000#32))
        (ix2 n j)
      = max (A (ix2 n j) + b (ix1 j)) 0 :=
  congrArg₂ max (congrArg (A (ix2 n j) + ·) (biasRows_apply b n j)) Ideal.ofBits_zero_f32

/-- The two programs hand the graph part the same array, so their aggregates are one array. -/
theorem agg_eq (x : FVec Ideal S100000x128 .f32) (w : FVec Ideal S128x64 .f32)
    (s d : (⟨S1700000, .i32⟩ : BufTy).Contents (Elt Ideal)) (nn : (⟨S1700000, .f32⟩ : BufTy).Contents (Elt Ideal)) :
    midK Ideal (Cert.KernelIdeal.Mm.MM x w) s d nn
      = aggOf Ideal (Host.dotGeneral (F := Ideal) Cert.ReferenceIdeal.dot_S100000x128_S128x64_S100000x64_1_0_0_1_n_n none x w) s d nn :=
  (midK_eq _ s d nn).trans (congrArg (fun h => aggOf Ideal h s d nn) (MM_eq_dot x w))

/-- The kernel program's layer is the reference's layer. -/
theorem layer_eq (x : FVec Ideal S100000x128 .f32) (ei : (⟨S2x1600000, .i32⟩ : BufTy).Contents (Elt Ideal))
    (w : FVec Ideal S128x64 .f32) (b : FVec Ideal S64 .f32) :
    Cert.KernelIdeal.Whole.layerK x ei w b = Cert.ReferenceIdeal.RefValue.layer x ei w b := by
  funext i
  obtain ⟨n, j, rfl⟩ : ∃ (n : Fin 100000) (j : Fin 64), i = ix2 n j := ⟨i 0, i 1, eq_ix2 i⟩
  refine (epilogueK_apply (midK Ideal (Cert.KernelIdeal.Mm.MM x w) (src Ideal ei) (dst Ideal ei) (nrm Ideal ei)) b n j).trans ?_
  rw [agg_eq]
  exact (epilogueR_apply _ b n j).symm

end Cert.Gcn

end
-- ==== Proof.lean ====
/-
  One graph-convolution layer, kernel program against reference:  out = max (Â · (x · W) + bias, 0)  with
  Â = D^{-1/2} (A + I) D^{-1/2} given by an edge list, on 100000 nodes, 128 input and 64 output features.

  Both programs compute the graph part — the degrees, their inverse square roots, the edge weights, the row gather and the
  scatter-add — by the SAME host operations.  They differ in two places.  The product x · W: the reference takes one general
  product; the kernel program runs a region of ten row blocks, each a block product into a zero accumulator with the operands
  narrowed to the 16-bit format, and narrows the product once more around the gather.  The epilogue: the reference adds the bias
  row and cuts at zero; the kernel program pairs the rows into a [50000, 128] layout, runs a region of five row blocks adding the
  doubled bias and cutting at zero, and undoes the pairing.  On the extended reals a change of format is the identity and a sum
  into a zero accumulator is the sum, so the two products are one array, the shared graph part gives one aggregate, and the two
  epilogues read the same number max (agg (n, j) + bias j, 0) at every entry.  No finiteness of the inputs is used.

  The frames of the two kernel programs are the generated ones; the reference's frame is its run with the result dropped;
  the idealization rewrote nothing, so `preserves` is trivial.
-/
import proofs.«122177_j62062277427822_2_alg».proof.Defs
import proofs.«122177_j62062277427822_2_alg».proof.Proof.Gen.Kernel
import proofs.«122177_j62062277427822_2_alg».proof.Proof.Gen.Kernel.Skeleton
import proofs.«122177_j62062277427822_2_alg».proof.Proof.Gen.Kernel.Launch
import proofs.«122177_j62062277427822_2_alg».proof.Proof.Gen.Kernel.Points
import proofs.«122177_j62062277427822_2_alg».proof.Proof.Gen.Kernel.Frame
import proofs.«122177_j62062277427822_2_alg».proof.Proof.Gen.KernelIdeal
import proofs.«122177_j62062277427822_2_alg».proof.Proof.Gen.KernelIdeal.Skeleton
import proofs.«122177_j62062277427822_2_alg».proof.Proof.Gen.KernelIdeal.Launch
import proofs.«122177_j62062277427822_2_alg».proof.Proof.Gen.KernelIdeal.Points
import proofs.«122177_j62062277427822_2_alg».proof.Proof.Gen.KernelIdeal.Frame
import proofs.«122177_j62062277427822_2_alg».proof.Proof.Gen.ReferenceIdeal
import proofs.«122177_j62062277427822_2_alg».proof.Proof.Gen.Pre_finite_inputs
import proofs.«122177_j62062277427822_2_alg».proof.Proof.KernelRun
import proofs.«122177_j62062277427822_2_alg».proof.Proof.KernelValue
import proofs.«122177_j62062277427822_2_alg».proof.Proof.RefRunP
import proofs.«122177_j62062277427822_2_alg».proof.Proof.RefSide
import proofs.«122177_j62062277427822_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the layer of the (agreeing) arguments: the kernel program's by its named run and the
    value of the last boundary's contents, the reference's by its run and its composed term read as the layer. -/
theorem algebraic : Cert.algebraic_KernelIdeal_ReferenceIdeal := by
  intro m ρ m' ρ' _ hagree
  refine ⟨fun c => Cert.KernelIdeal.Whole.layerK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Whole.result_eq m ρ c), (h c).2⟩)
      (Cert.KernelIdeal.Named.run_named m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2]
    exact (Cert.Gcn.layer_eq _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
